-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x200x10000 : Shape := ⟨3, ![16, 200, 10000]⟩
abbrev S10000x64 : Shape := ⟨2, ![10000, 64]⟩
abbrev S_ : Shape := ⟨0, ![]⟩

class Facts : Prop where
  bcast_S_S16x200x10000 : S_.BroadcastsInDim S16x200x10000 (![] : Fin 0 → Fin S16x200x10000.rank)
  reducesTo_S16x200x10000_S_d0_1_2 : S16x200x10000.ReducesTo [0, 1, 2] S_
  h_S_ : 0 < S_.numel
  bcast_S_S10000x64 : S_.BroadcastsInDim S10000x64 (![] : Fin 0 → Fin S10000x64.rank)
  reducesTo_S10000x64_S_d0_1 : S10000x64.ReducesTo [0, 1] S_

variable [Facts]

def fn {F : FTy → Type} [FloatOps F] (main_arg0 : FVec F S16x200x10000 .f32) (main_arg1 : FVec F S10000x64 .f32) : IVec S_ 1 :=
  let main_v0 : FVec F S16x200x10000 .f32 := Host.absf main_arg0
  let main_cst : FVec F S_ .f32 := constant S_ .f32 0x7F800000#32
  let main_v1 : FVec F S16x200x10000 .f32 := broadcastInDim S16x200x10000 ![] bcast_S_S16x200x10000 main_cst
  let main_v2 : IVec S16x200x10000 1 := cmpf .olt main_v0 main_v1
  let main_c : IVec S_ 1 := constantI S_ 1 1#1
  let main_v3 : IVec S_ 1 := (fun x v => Host.reduce IntOp.andi x v reducesTo_S16x200x10000_S_d0_1_2 h_S_) main_v2 main_c
  let main_v4 : FVec F S10000x64 .f32 := Host.absf main_arg1
  let main_cst_0 : FVec F S_ .f32 := constant S_ .f32 0x7F800000#32
  let main_v5 : FVec F S10000x64 .f32 := broadcastInDim S10000x64 ![] bcast_S_S10000x64 main_cst_0
  let main_v6 : IVec S10000x64 1 := cmpf .olt main_v4 main_v5
  let main_c_1 : IVec S_ 1 := constantI S_ 1 1#1
  let main_v7 : IVec S_ 1 := (fun x v => Host.reduce IntOp.andi x v reducesTo_S10000x64_S_d0_1 h_S_) main_v6 main_c_1
  let main_v8 : IVec S_ 1 := andi main_v3 main_v7
  main_v8
-- ==== Kernel.lean ====
abbrev S16x200x10000 : Shape := ⟨3, ![16, 200, 10000]⟩
abbrev S10000x64 : Shape := ⟨2, ![10000, 64]⟩
abbrev S3200x10000 : Shape := ⟨2, ![3200, 10000]⟩
abbrev S_ : Shape := ⟨0, ![]⟩
abbrev S10000x1 : Shape := ⟨2, ![10000, 1]⟩
abbrev S10000x65 : Shape := ⟨2, ![10000, 65]⟩
abbrev S3200x64 : Shape := ⟨2, ![3200, 64]⟩
abbrev S160x10000 : Shape := ⟨2, ![160, 10000]⟩
abbrev S160x64 : Shape := ⟨2, ![160, 64]⟩
abbrev S160x65 : Shape := ⟨2, ![160, 65]⟩
abbrev S160x1 : Shape := ⟨2, ![160, 1]⟩
abbrev S16x200x64 : Shape := ⟨3, ![16, 200, 64]⟩

abbrev nBuf : Space → Nat
  | .hbm => 9
  | .vmem => 5
  | .smem => 0
  | _ => 0

abbrev bufTy : (tb : Table) → Fin (tcTables nBuf tb) → BufTy
  | .hbm, ⟨0, _⟩ => ⟨S16x200x10000, .f32⟩
  | .hbm, ⟨1, _⟩ => ⟨S10000x64, .f32⟩
  | .hbm, ⟨2, _⟩ => ⟨S3200x10000, .f32⟩
  | .hbm, ⟨3, _⟩ => ⟨S_, .f32⟩
  | .hbm, ⟨4, _⟩ => ⟨S10000x1, .f32⟩
  | .hbm, ⟨5, _⟩ => ⟨S10000x65, .f32⟩
  | .hbm, ⟨6, _⟩ => ⟨S10000x65, .bf16⟩
  | .hbm, ⟨7, _⟩ => ⟨S3200x64, .f32⟩
  | .hbm, ⟨8, _⟩ => ⟨S16x200x64, .f32⟩
  | .local _ .vmem, ⟨0, _⟩ => ⟨S160x10000, .f32⟩
  | .local _ .vmem, ⟨1, _⟩ => ⟨S160x10000, .f32⟩
  | .local _ .vmem, ⟨2, _⟩ => ⟨S10000x65, .bf16⟩
  | .local _ .vmem, ⟨3, _⟩ => ⟨S160x64, .f32⟩
  | .local _ .vmem, ⟨4, _⟩ => ⟨S160x64, .f32⟩
  | _, _ => ⟨S16x200x10000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S160x10000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S10000x65 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S160x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  shapeCasts_S16x200x10000_S3200x10000 : S16x200x10000.ShapeCasts S3200x10000
  bcast_S_S10000x1 : S_.BroadcastsInDim S10000x1 (![] : Fin 0 → Fin S10000x1.rank)
  concatenates_S10000x64_S10000x1_S10000x65_d1 : Shape.Concatenates [S10000x64, S10000x1] S10000x65 1
  bitsLt_bf16_f32 : FTy.bits .bf16 < FTy.bits .f32
  inb_S160x10000_S160x10000_0_0 : ∀ a, (![0, 0] : Fin 2 → Nat) a + S160x10000.size a ≤ S160x10000.size a
  h_S160x10000 : 0 < S160x10000.numel
  shapeCasts_S160x10000_S160x10000 : S160x10000.ShapeCasts S160x10000
  inb_S10000x65_S10000x65_0_0 : ∀ a, (![0, 0] : Fin 2 → Nat) a + S10000x65.size a ≤ S10000x65.size a
  h_S10000x65 : 0 < S10000x65.numel
  shapeCasts_S10000x65_S10000x65 : S10000x65.ShapeCasts S10000x65
  slices_S160x65_o0_64_S160x1 : S160x65.Slices ![0, 64] S160x1
  slices_S160x65_o0_0_S160x64 : S160x65.Slices ![0, 0] S160x64
  broadcasts_S160x1_S160x64 : S160x1.Broadcasts S160x64
  inb_S160x64_S160x64_0_0 : ∀ a, (![0, 0] : Fin 2 → Nat) a + S160x64.size a ≤ S160x64.size a
  h_S160x64 : 0 < S160x64.numel
  shapeCasts_S3200x64_S16x200x64 : S3200x64.ShapeCasts S16x200x64
  dot_S160x10000_S10000x65_S160x65_1_0_0_1_n_n_wf : DotDims.WF S160x10000 S10000x65 S160x65 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S160x10000.size a ≤ S3200x10000.size a
  hwx0_0 : ∀ i : grid0.Coords, EltTy.bits .f32 = 32 ∨ (Rect.block (s := S3200x10000) S160x10000.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S10000x65.size a ≤ S10000x65.size a
  hwx0_1 : ∀ i : grid0.Coords, EltTy.bits .bf16 = 32 ∨ (Rect.block (s := S10000x65) S10000x65.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S160x64.size a ≤ S3200x64.size a
  hwx0_2 : ∀ i : grid0.Coords, EltTy.bits .f32 = 32 ∨ (Rect.block (s := S3200x64) S160x64.size (cc0_transform_2 i) (hinb0_2 i)).WholeWords (EltTy.packing .f32)

variable [Facts₀]

def dot_S160x10000_S10000x65_S160x65_1_0_0_1_n_n : DotDims S160x10000 S10000x65 S160x65 where
  lhsContracting := [1]
  rhsContracting := [0]
  lhsNonContracting := [0]
  rhsNonContracting := [1]
  lhsBatch := []
  rhsBatch := []
  wf := dot_S160x10000_S10000x65_S160x65_1_0_0_1_n_n_wf

abbrev win0_0 : Pipeline.Window sig grid0 :=
  Pipeline.Window.ofSpec (Memref.whole main_v0) S160x10000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S10000x65.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S160x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S16x200x10000 : Shape := ⟨3, ![16, 200, 10000]⟩
abbrev S10000x64 : Shape := ⟨2, ![10000, 64]⟩
abbrev S_ : Shape := ⟨0, ![]⟩
abbrev S16x200 : Shape := ⟨2, ![16, 200]⟩
abbrev S16x200x1 : Shape := ⟨3, ![16, 200, 1]⟩
abbrev S16x200x64 : Shape := ⟨3, ![16, 200, 64]⟩

abbrev nBuf : Space → Nat
  | .hbm => 12
  | .vmem => 0
  | .smem => 0
  | _ => 0

abbrev bufTy : (tb : Table) → Fin (tcTables nBuf tb) → BufTy
  | .hbm, ⟨0, _⟩ => ⟨S16x200x10000, .f32⟩
  | .hbm, ⟨1, _⟩ => ⟨S10000x64, .f32⟩
  | .hbm, ⟨2, _⟩ => ⟨S_, .f32⟩
  | .hbm, ⟨3, _⟩ => ⟨S16x200, .f32⟩
  | .hbm, ⟨4, _⟩ => ⟨S16x200x1, .f32⟩
  | .hbm, ⟨5, _⟩ => ⟨S_, .f32⟩
  | .hbm, ⟨6, _⟩ => ⟨S_, .f32⟩
  | .hbm, ⟨7, _⟩ => ⟨S16x200x1, .f32⟩
  | .hbm, ⟨8, _⟩ => ⟨S16x200x1, .f32⟩
  | .hbm, ⟨9, _⟩ => ⟨S16x200x10000, .f32⟩
  | .hbm, ⟨10, _⟩ => ⟨S16x200x10000, .f32⟩
  | .hbm, ⟨11, _⟩ => ⟨S16x200x64, .f32⟩
  | _, _ => ⟨S16x200x10000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_cst_0 : Ref sig .tc := ⟨.hbm, 5, rfl⟩
abbrev main_call0_v0 : Ref sig .tc := ⟨.hbm, 6, rfl⟩
abbrev main_call0_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩

abbrev nD : Nat := 1
abbrev τ : Topo := Topo.v7x

variable {F : FTy → Type} [FloatOps F]

class Facts₀ : Prop where
  reducesTo_S16x200x10000_S16x200_d2 : S16x200x10000.ReducesTo [2] S16x200
  h_S_ : 0 < S_.numel
  bcast_S16x200_S16x200x1_0_1 : S16x200.BroadcastsInDim S16x200x1 (![0, 1] : Fin 2 → Fin S16x200x1.rank)
  bcast_S_S16x200x1 : S_.BroadcastsInDim S16x200x1 (![] : Fin 0 → Fin S16x200x1.rank)
  bcast_S16x200x1_S16x200x10000_0_1_2 : S16x200x1.BroadcastsInDim S16x200x10000 (![0, 1, 2] : Fin 3 → Fin S16x200x10000.rank)
  dot_S16x200x10000_S10000x64_S16x200x64_2_0_01_1_n_n_wf : DotDims.WF S16x200x10000 S10000x64 S16x200x64 [2] [0] [0, 1] [1] [] []

variable [Facts₀]

def dot_S16x200x10000_S10000x64_S16x200x64_2_0_01_1_n_n : DotDims S16x200x10000 S10000x64 S16x200x64 where
  lhsContracting := [2]
  rhsContracting := [0]
  lhsNonContracting := [0, 1]
  rhsNonContracting := [1]
  lhsBatch := []
  rhsBatch := []
  wf := dot_S16x200x10000_S10000x64_S16x200x64_2_0_01_1_n_n_wf

class Facts : Prop extends Facts₀ where

variable [Facts]
-- ==== Proof.Spec.lean ====
/-
  The mean embedding of a multi-hot row, written two ways, and the law that joins them.

  A row `x` of weights over `K` classes selects rows of a table `w`. With `c = max 1 (Σ x)` the row's count clamped
  below at one, the result at column `d` is the weighted sum of the table's column divided by `c`:
    * dividing first:    `Σ k, (x k / c) · w k d`            (each weight normalised, then the contraction);
    * dividing last:     `(Σ k, x k · w k d) · (1 / c)`      (one contraction, then one reciprocal per row),
      the count itself being the contraction of the row with a column of ones, `Σ k, x k · 1`.
  On the extended reals a factor moves across a sum only when nothing is infinite, so the law is stated for real
  entries: then `c` is a real at least one, the quotient by `c` is the product with the real `1 / c`, and both sides
  are the real number `(Σ k, x k · w k d) / c`.
-/
import Idealize.ShloMosaic.PureOps.Ideal.Laws
import Idealize.ShloMosaic.Lib.ValueIdx

noncomputable section

open scoped BigOperators

namespace Cert.MultiHot

open Idealize.ShloMosaic Idealize.ShloMosaic.ValueIdx

/-- The float word of one denotes the number one. -/
theorem one_f32 : Ideal.ofBits .f32 0x3F800000#32 = 1 := by
  simp [Ideal.ofBits, Ideal.ieee, -EReal.coe_mul]; norm_num

/-- A finite sum of reals read as extended reals is the real sum read as an extended real. -/
theorem coe_sum {ι : Type} (s : Finset ι) (f : ι → ℝ) : (∑ k ∈ s, (f k : EReal)) = ((∑ k ∈ s, f k : ℝ) : EReal) := by
  classical
  refine Finset.induction_on s (by simp) fun a s ha ih => ?_
  rw [Finset.sum_insert ha, Finset.sum_insert ha, ih, EReal.coe_add]

/-- Clamping a real below at one commutes with reading it as an extended real. -/
theorem max_one_coe (S : ℝ) : max (1 : EReal) (S : EReal) = ((max 1 S : ℝ) : EReal) :=
  (EReal.coe_strictMono.monotone.map_max (a := (1 : ℝ)) (b := S)).symm

/-- THE LAW. For real weights `a` and a real table column `b`: one contraction followed by one reciprocal of the
    clamped count (the count read as the contraction with ones) is the contraction of the normalised weights. -/
theorem mean_two_ways {K : ℕ} (a b : Fin K → ℝ) :
    (∑ k, (a k : EReal) * (b k : EReal)) * Ideal.div 1 (max 1 (∑ k, (a k : EReal) * 1))
      = ∑ k, Ideal.div (a k : EReal) (max 1 (0 + ∑ k', (a k' : EReal))) * (b k : EReal) := by
  have hc0 : (max 1 (∑ k, a k) : ℝ) ≠ 0 := by
    have : (1 : ℝ) ≤ max 1 (∑ k, a k) := le_max_left _ _
    intro h; rw [h] at this; norm_num at this
  have hden1 : max (1 : EReal) (∑ k, (a k : EReal) * 1) = ((max 1 (∑ k, a k) : ℝ) : EReal) := by
    simp only [mul_one]; rw [coe_sum, max_one_coe]
  have hden2 : max (1 : EReal) (0 + ∑ k', (a k' : EReal)) = ((max 1 (∑ k, a k) : ℝ) : EReal) := by
    rw [zero_add, coe_sum, max_one_coe]
  rw [hden1, hden2]
  simp only [Ideal.div_coe hc0, one_mul, ← EReal.coe_mul]
  rw [coe_sum, coe_sum, ← EReal.coe_mul, Finset.sum_mul]
  exact congrArg _ (Finset.sum_congr rfl fun k _ => by ring)

/-! ## The two whole-array functions -/

/-- Dividing first: every weight of row `(b, s)` over the row's clamped count, contracted with the table. -/
def G (x : (⟨3, ![16, 200, 10000]⟩ : Shape).Idx → EReal) (w : (⟨2, ![10000, 64]⟩ : Shape).Idx → EReal) :
    (⟨3, ![16, 200, 64]⟩ : Shape).Idx → EReal :=
  fun i => ∑ k : Fin 10000, Ideal.div (x (ix3 (i 0) (i 1) k)) (max 1 (0 + ∑ k' : Fin 10000, x (ix3 (i 0) (i 1) k')))
    * w (ix2 k (i 2))

/-- Dividing last: the contraction of row `(b, s)` with the table, times the reciprocal of the row's clamped count,
    the count being the row's contraction with ones. -/
def Glast (x : (⟨3, ![16, 200, 10000]⟩ : Shape).Idx → EReal) (w : (⟨2, ![10000, 64]⟩ : Shape).Idx → EReal) :
    (⟨3, ![16, 200, 64]⟩ : Shape).Idx → EReal :=
  fun i => (∑ k : Fin 10000, x (ix3 (i 0) (i 1) k) * w (ix2 k (i 2)))
    * Ideal.div 1 (max 1 (∑ k : Fin 10000, x (ix3 (i 0) (i 1) k) * 1))

/-- On arrays of real entries the two are one function. -/
theorem Glast_eq_G (x : (⟨3, ![16, 200, 10000]⟩ : Shape).Idx → EReal) (w : (⟨2, ![10000, 64]⟩ : Shape).Idx → EReal)
    (hx : ∀ i, ∃ r : ℝ, x i = (r : EReal)) (hw : ∀ i, ∃ r : ℝ, w i = (r : EReal)) : Glast x w = G x w := by
  choose a ha using hx
  choose b hb using hw
  funext i
  unfold Glast G
  simp only [ha, hb]
  exact mean_two_ways (fun k => a (ix3 (i 0) (i 1) k)) (fun k => b (ix2 k (i 2)))

end Cert.MultiHot

end
-- ==== Proof.Finite.lean ====
/-
  What the precondition says of the arguments: every entry of both arrays is a real number.

  The precondition is the conjunction, over all entries of each array, of `|x| < +∞`. On the extended reals
  `|x| = max x (-x)` is `+∞` exactly at the two infinities, so the strict bound leaves the reals.
-/
import proofs.«116994_j48704929136830_2_alg».proof.Proof.Gen.Pre_finite_inputs
import Idealize.ShloMosaic.Lib.ReduceAll
import Idealize.ShloMosaic.Lib.ValueIdx
import Idealize.ShloMosaic.PureOps.Ideal.Laws

noncomputable section

namespace Cert.Pre_finite_inputs.Decode

open Cert.Pre_finite_inputs Idealize.ShloMosaic Idealize.ShloMosaic.ValueIdx

/-- The scalar shape has one index. -/
instance : Subsingleton S_.Idx := ⟨fun a b => funext fun d => d.elim0⟩

/-- The float word of the positive infinity denotes `+∞`. -/
theorem inf_f32 : Ideal.ofBits .f32 0x7F800000#32 = ⊤ := by simp [Ideal.ofBits, Ideal.ieee]

/-- An extended real whose absolute value is strictly below `+∞` is a real. -/
theorem real_of_abs_lt_inf (x : EReal) (h : Ideal.cmp .olt (max x (-x)) (Ideal.ofBits .f32 0x7F800000#32) = 1#1) :
    ∃ r : ℝ, x = (r : EReal) := by
  rw [inf_f32] at h
  induction x using EReal.rec with
  | bot => simp [Ideal.cmp] at h
  | coe r => exact ⟨r, rfl⟩
  | top => simp [Ideal.cmp] at h

/-- Under the precondition both argument arrays hold reals only. -/
theorem real_of_pre [Facts] (a0 : FVec Ideal S16x200x10000 .f32) (a1 : FVec Ideal S10000x64 .f32)
    (h : fn (F := Ideal) a0 a1 = fun _ => 1#1) :
    (∀ i, ∃ r : ℝ, a0 i = (r : EReal)) ∧ (∀ i, ∃ r : ℝ, a1 i = (r : EReal)) := by
  have h0 := congrFun h ix0
  dsimp only [fn] at h0
  obtain ⟨h1, h2⟩ := IntOp.andi_eq_one.1 h0
  exact ⟨fun i => real_of_abs_lt_inf _ (Host.reduce_andi_all _ _ _ _ ix0 h1 i),
    fun i => real_of_abs_lt_inf _ (Host.reduce_andi_all _ _ _ _ ix0 h2 i)⟩

end Cert.Pre_finite_inputs.Decode

end
-- ==== Proof.RefSide.lean ====
/-
  The reference computes `G`: its result at `(b, s, d)` is the contraction over the classes `k` of the quotient
  `x (b, s, k) / c (b, s)` with the table entry `w (k, d)`, where `c (b, s)` is the row's sum (started at zero),
  kept as a unit axis, clamped below at one and broadcast back along the classes. Each stage is read at an index;
  the composed index maps only copy the coordinates `b`, `s` and put `k` (or `0` on the unit axis) last.
-/
import proofs.«116994_j48704929136830_2_alg».proof.Proof.Gen.ReferenceIdeal.Read
import proofs.«116994_j48704929136830_2_alg».proof.Proof.Spec

noncomputable section

namespace Cert.ReferenceIdeal.RefValue

open Cert.ReferenceIdeal Cert.ReferenceIdeal.Read Idealize.ShloMosaic Idealize.ShloMosaic.ValueIdx Cert.MultiHot

/-- The last stage of the reference, as a function of the two argument arrays, is `G`. -/
theorem ref_is_G (x0 : (⟨S16x200x10000, .f32⟩ : BufTy).Contents (Elt Ideal)) (x1 : (⟨S10000x64, .f32⟩ : BufTy).Contents (Elt Ideal)) :
    val_main_v5 (F := Ideal) x0 x1 = G x0 x1 := by
  funext i
  rw [val_main_v5_apply]
  unfold G
  refine Finset.sum_congr rfl fun k _ => ?_
  have el : lidx_main_v5 i k = ix3 (i 0) (i 1) k :=
    funext fun a => Fin.ext (by match a with | ⟨0, _⟩ => rfl | ⟨1, _⟩ => rfl | ⟨2, _⟩ => rfl)
  have er : ridx_main_v5 i k = ix2 k (i 2) :=
    funext fun a => Fin.ext (by match a with | ⟨0, _⟩ => rfl | ⟨1, _⟩ => rfl)
  have es : ∀ k' : Fin 10000, idx_main_v0 (idx_main_v1 (idx_main_v3 (lidx_main_v5 i k))) k' = ix3 (i 0) (i 1) k' :=
    fun k' => funext fun a => Fin.ext (by match a with | ⟨0, _⟩ => rfl | ⟨1, _⟩ => rfl | ⟨2, _⟩ => rfl)
  rw [val_main_v4_apply, val_main_v3_apply, val_main_v2_apply, val_main_call0_v1_apply, val_main_call0_v0_apply,
    val_main_cst_0_apply, val_main_v1_apply, val_main_v0_apply, val_main_cst_apply]
  simp only [es, el, er, Ideal.hostDivf_def, Ideal.maximumf_def, Ideal.ofBits_def, one_f32, Ideal.ofBits_zero_f32]
  rfl

end Cert.ReferenceIdeal.RefValue

end
-- ==== Proof.LibPlainDot.lean ====
/-
  A matrix product with plain dimension numbers, read at an index on the extended reals.

  For an `M×K` by `K×N` contraction (left axis 1 against right axis 0, no batch axis) the element at `(r, c)` of
  a matrix-unit product into a zero accumulator, and of the host's `dot_general`, is the sum over `k : Fin K` of
  `l (r, k) * w (k, c)`: the contraction's one-axis index type is re-indexed by its single coordinate.
-/
import Idealize.ShloMosaic.PureOps.Ideal.Laws
import Idealize.ShloMosaic.Lib.ValueIdx

noncomputable section

namespace Cert.PlainDot

open Idealize.ShloMosaic Idealize.ShloMosaic.ValueIdx

/-- The contraction sum of a plain `M×K` by `K×N` product at output index `j`, over `Fin K`. -/
theorem contr_sum (M K N : Nat) (l : (⟨2, ![M, K]⟩ : Shape).Idx → EReal) (w : (⟨2, ![K, N]⟩ : Shape).Idx → EReal)
    (j : (⟨2, ![M, N]⟩ : Shape).Idx) :
    (∑ q : (DotDims.plain M K N).contr.Idx, l ((DotDims.plain M K N).lhsIdx j q) * w ((DotDims.plain M K N).rhsIdx j q))
      = ∑ k : Fin K, l (ix2 (j 0) k) * w (ix2 k (j 1)) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx j ((contrEquiv1 (DotDims.plain M K N) K rfl rfl).symm k) = ix2 (j 0) k :=
    funext fun a => Fin.ext (by
      match a with
      | ⟨0, _⟩ => rfl
      | ⟨1, _⟩ => exact hk)
  have er : (DotDims.plain M K N).rhsIdx j ((contrEquiv1 (DotDims.plain M K N) K rfl rfl).symm k) = ix2 k (j 1) :=
    funext fun a => Fin.ext (by
      match a with
      | ⟨0, _⟩ => exact hk
      | ⟨1, _⟩ => rfl)
  rw [el, er]
  rfl

/-- A matrix-unit product into the zero accumulator, at an index. -/
theorem matmul_zero_apply (M K N : Nat) {φ₁ φ₂ : FTy} (prec : Option ContractPrecision)
    (l : FVec Ideal (⟨2, ![M, K]⟩ : Shape) φ₁) (w : FVec Ideal (⟨2, ![K, N]⟩ : Shape) φ₂) (j : (⟨2, ![M, N]⟩ : Shape).Idx) :
    FloatOps.matmul (DotDims.plain M K N) prec l w (constant (⟨2, ![M, N]⟩ : Shape) .f32 0x00000000#32) j
      = ∑ k : Fin K, l (ix2 (j 0) k) * w (ix2 k (j 1)) :=
  (Ideal.matmul_constant_zero_apply (DotDims.plain M K N) prec l w j).trans (contr_sum M K N l w j)

/-- The host's `dot_general`, at an index. -/
theorem dotGeneral_apply (M K N : Nat) {φ₁ φ₂ : FTy} (prec : Option ContractPrecision) (sched : HostSchedule)
    (l : FVec Ideal (⟨2, ![M, K]⟩ : Shape) φ₁) (w : FVec Ideal (⟨2, ![K, N]⟩ : Shape) φ₂) (j : (⟨2, ![M, N]⟩ : Shape).Idx) :
    FloatOps.dotGeneral (DotDims.plain M K N) prec sched l w j
      = ∑ k : Fin K, l (ix2 (j 0) k) * w (ix2 k (j 1)) :=
  (Ideal.dotGeneral_apply (DotDims.plain M K N) prec sched l w j).trans (contr_sum M K N l w j)

end Cert.PlainDot

end
-- ==== Proof.LibKeepdims.lean ====
/-
  Sums along one axis of a matrix with the reduced axis kept as a unit axis, read at an index.

  A row sum of an `M×K` matrix kept as a column (`[M] → [M, 1]`) and broadcast over `N` columns reads, at `(p, c)`,
  the sum over `k : Fin K` of row `p`; a column sum of a `K×N` matrix kept as a row (`[N] → [1, N]`) and broadcast
  over `M` rows reads, at `(p, c)`, the sum over `k : Fin K` of column `c`. The two layout steps that the column form
  needs (a trailing unit axis added by a shape cast, a column broadcast over many columns) are stated on their own.
-/
import Idealize.ShloMosaic.PureOps.Ideal.Laws
import Idealize.ShloMosaic.Lib.ValueIdx
import Idealize.ShloMosaic.Lib.ValueLayout

noncomputable section

namespace Cert.Keepdims

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's one entry of row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A lane sum of a matrix over its columns (axis 1), at row `p`: the sum of that row. -/
theorem sum_axis1_apply {a b : ℕ} {φ : FTy} (src : FVec Ideal (⟨2, ![a, b]⟩ : Shape) φ) (acc : BitVec φ.bits)
    (h : (⟨2, ![a, b]⟩ : Shape).Reduces [1] ⟨1, ![a]⟩) (hφ : FKind.Formats φ) (hacc : acc = FKind.add.neutral φ hφ)
    (p : Fin a) :
    multiReduction .add [1] ⟨1, ![a]⟩ src acc h hφ hacc (ix1 p) = ∑ k : Fin b, src (ix2 p k) :=
  (Ideal.multiReduction_add_single src acc h hφ hacc (ix1 p)).trans
    (Finset.sum_congr rfl fun k _ => congrArg src (funext fun ax => Fin.ext (by
      match ax with
      | ⟨0, _⟩ => rfl
      | ⟨1, _⟩ => rfl)))

/-- A lane sum of a matrix over its rows (axis 0), at column `q`: the sum of that column. -/
theorem sum_axis0_apply {a b : ℕ} {φ : FTy} (src : FVec Ideal (⟨2, ![a, b]⟩ : Shape) φ) (acc : BitVec φ.bits)
    (h : (⟨2, ![a, b]⟩ : Shape).Reduces [0] ⟨1, ![b]⟩) (hφ : FKind.Formats φ) (hacc : acc = FKind.add.neutral φ hφ)
    (q : Fin b) :
    multiReduction .add [0] ⟨1, ![b]⟩ src acc h hφ hacc (ix1 q) = ∑ k : Fin a, src (ix2 k q) :=
  (Ideal.multiReduction_add_single src acc h hφ hacc (ix1 q)).trans
    (Finset.sum_congr rfl fun k _ => congrArg src (funext fun ax => Fin.ext (by
      match ax with
      | ⟨0, _⟩ => rfl
      | ⟨1, _⟩ => rfl)))

/-- The row sums of an `M×K` matrix, kept as a column and broadcast over `N` columns, at `(p, c)`. -/
theorem rowSum_keep_bcast_apply {M K N : ℕ} {φ : FTy} (src : FVec Ideal (⟨2, ![M, K]⟩ : Shape) φ) (acc : BitVec φ.bits)
    (h : (⟨2, ![M, K]⟩ : Shape).Reduces [1] ⟨1, ![M]⟩) (hφ : FKind.Formats φ) (hacc : acc = FKind.add.neutral φ hφ)
    (hc : (⟨1, ![M]⟩ : Shape).ShapeCasts ⟨2, ![M, 1]⟩) (hb : (⟨2, ![M, 1]⟩ : Shape).Broadcasts ⟨2, ![M, N]⟩)
    (p : Fin M) (c : Fin N) :
    broadcastTo ⟨2, ![M, N]⟩ (shapeCast ⟨2, ![M, 1]⟩ (multiReduction .add [1] ⟨1, ![M]⟩ src acc h hφ hacc) hc) hb (ix2 p c)
      = ∑ k : Fin K, src (ix2 p k) :=
  (broadcastTo_a1_ab_apply _ hb p c).trans
    ((shapeCast_a_a1_apply _ hc p 0).trans (sum_axis1_apply src acc h hφ hacc p))

/-- The column sums of a `K×N` matrix, kept as a row and broadcast over `M` rows, at `(p, c)`. -/
theorem colSum_keep_bcast_apply {M K N : ℕ} {φ : FTy} (src : FVec Ideal (⟨2, ![K, N]⟩ : Shape) φ) (acc : BitVec φ.bits)
    (h : (⟨2, ![K, N]⟩ : Shape).Reduces [0] ⟨1, ![N]⟩) (hφ : FKind.Formats φ) (hacc : acc = FKind.add.neutral φ hφ)
    (hc : (⟨1, ![N]⟩ : Shape).ShapeCasts ⟨2, ![1, N]⟩) (hb : (⟨2, ![1, N]⟩ : Shape).Broadcasts ⟨2, ![M, N]⟩)
    (p : Fin M) (c : Fin N) :
    broadcastTo ⟨2, ![M, N]⟩ (shapeCast ⟨2, ![1, N]⟩ (multiReduction .add [0] ⟨1, ![N]⟩ src acc h hφ hacc) hc) hb (ix2 p c)
      = ∑ k : Fin K, src (ix2 k c) :=
  (broadcastTo_1b_ab_apply _ hb p c).trans
    ((shapeCast_a_1a_apply _ hc 0 c).trans (sum_axis0_apply src acc h hφ hacc c))

end Cert.Keepdims

end
-- ==== Proof.KPayload.lean ====
/-
  The kernel body's stored value at an entry `(p, q)` of its 160 × 64 block.

  The body multiplies its block of 160 weight rows by the whole augmented table (the 64 table columns and a last
  column of ones) in one product into a zero accumulator. Column 64 of the product is each row's count; it is
  clamped below at one and inverted, the reciprocal is broadcast along the 64 table columns, and columns 0–63 of the
  product are scaled by it. So the entry is
      (Σ k, x (p, k) · w (k, q)) · (1 / max 1 (Σ k, x (p, k) · w (k, 64))).
  The two format changes on the way to the matrix unit are the identity on the extended reals.
-/
import proofs.«116994_j48704929136830_2_alg».proof.Proof.Gen.KernelIdeal.Skeleton
import proofs.«116994_j48704929136830_2_alg».proof.Proof.LibPlainDot
import proofs.«116994_j48704929136830_2_alg».proof.Proof.LibKeepdims
import proofs.«116994_j48704929136830_2_alg».proof.Proof.Spec
import Idealize.ShloMosaic.Lib.Pipeline.Value

noncomputable section

namespace Cert.KernelIdeal.Body

open Cert.KernelIdeal Cert.KernelIdeal.Gen Idealize.ShloMosaic Idealize.ShloMosaic.ValueIdx Cert.MultiHot

/-- A column index of the table read as a column index of the augmented table. -/
abbrev tcol (q : Fin 64) : Fin 65 := ⟨q.val, by have := q.isLt; omega⟩
/-- The augmented table's last column, the ones. -/
abbrev ccol : Fin 65 := ⟨64, by decide⟩

/-- The product of the weight block with the augmented table, into zero, at an entry: the contraction over the classes. -/
theorem prod_apply (l : FVec Ideal S160x10000 .bf16) (w : FVec Ideal S10000x65 .bf16) (p : Fin 160) (q : Fin 65) :
    matmul dot_S160x10000_S10000x65_S160x65_1_0_0_1_n_n none l w (constant S160x65 .f32 0x00000000#32) (ix2 p q)
      = ∑ k : Fin 10000, l (ix2 p k) * w (ix2 k q) :=
  Cert.PlainDot.matmul_zero_apply 160 10000 65 none l w (ix2 p q)

/-- The count column sliced out of the product: entry `(p, ·)` is the product's entry `(p, 64)`. -/
theorem count_col (v : FVec Ideal S160x65 .f32) (p : Fin 160) (u : Fin 1) :
    extractStridedSlice S160x1 ![0, 64] v slices_S160x65_o0_64_S160x1 (ix2 p u) = v (ix2 p ccol) :=
  extractStridedSlice_apply _ v _ (ix2 p u) (ix2 p ccol) (fun a => by
    match a with
    | ⟨0, _⟩ => show p.val = 0 + p.val; omega
    | ⟨1, _⟩ => show 64 = 64 + u.val; have := u.isLt; omega)

/-- The table columns sliced out of the product: entry `(p, q)` is the product's entry `(p, q)`. -/
theorem table_cols (v : FVec Ideal S160x65 .f32) (p : Fin 160) (q : Fin 64) :
    extractStridedSlice S160x64 ![0, 0] v slices_S160x65_o0_0_S160x64 (ix2 p q) = v (ix2 p (tcol q)) :=
  extractStridedSlice_apply _ v _ (ix2 p q) (ix2 p (tcol q)) (fun a => by
    match a with
    | ⟨0, _⟩ => show p.val = 0 + p.val; omega
    | ⟨1, _⟩ => show q.val = 0 + q.val; omega)

/-- What the body does with the product: scale the table columns by the reciprocal of the clamped count column. -/
def scaled (mm : FVec Ideal S160x65 .f32) : FVec Ideal S160x64 .f32 :=
  mulf (extractStridedSlice S160x64 ![0, 0] mm slices_S160x65_o0_0_S160x64)
    (broadcastTo S160x64
      (divf (broadcast S160x1 (Scalar.ofBits (F := Ideal) .f32 0x3F800000#32))
        (maximumf (broadcast S160x1 (Scalar.ofBits (F := Ideal) .f32 0x3F800000#32))
          (extractStridedSlice S160x1 ![0, 64] mm slices_S160x65_o0_64_S160x1)))
      broadcasts_S160x1_S160x64)

/-- That, at an entry. -/
theorem scaled_apply (mm : FVec Ideal S160x65 .f32) (p : Fin 160) (q : Fin 64) :
    scaled mm (ix2 p q) = mm (ix2 p (tcol q)) * Ideal.div 1 (max 1 (mm (ix2 p ccol))) := by
  unfold scaled
  rw [mulf_apply, table_cols, Cert.Keepdims.broadcastTo_a1_ab_apply, divf_apply, maximumf_apply, broadcast_apply,
    count_col]
  simp only [Ideal.ofBits_def, one_f32]

/-- The stored value is the scaling of the product of the loaded blocks (the body's text, its names substituted). -/
theorem pay_eq (x0 : Vec Ideal S160x10000 .f32) (x1 : Vec Ideal S10000x65 .bf16) :
    k0_pay1 x0 x1 = scaled (matmul dot_S160x10000_S10000x65_S160x65_1_0_0_1_n_n none
      (truncf .bf16 (shapeCast S160x10000 x0 shapeCasts_S160x10000_S160x10000 : FVec Ideal S160x10000 .f32) bitsLt_bf16_f32 : FVec Ideal S160x10000 .bf16)
      (shapeCast S10000x65 x1 shapeCasts_S10000x65_S10000x65 : FVec Ideal S10000x65 .bf16) (constant S160x65 .f32 0x00000000#32)) := rfl

/-- The same-shape casts and the change of format in front of the matrix unit are the identity. -/
theorem operands_eq (x0 : Vec Ideal S160x10000 .f32) (x1 : Vec Ideal S10000x65 .bf16) :
    matmul dot_S160x10000_S10000x65_S160x65_1_0_0_1_n_n none
      (truncf .bf16 (shapeCast S160x10000 x0 shapeCasts_S160x10000_S160x10000 : FVec Ideal S160x10000 .f32) bitsLt_bf16_f32 : FVec Ideal S160x10000 .bf16)
      (shapeCast S10000x65 x1 shapeCasts_S10000x65_S10000x65 : FVec Ideal S10000x65 .bf16) (constant S160x65 .f32 0x00000000#32)
    = matmul (φ₁ := .bf16) (φ₂ := .bf16) dot_S160x10000_S10000x65_S160x65_1_0_0_1_n_n none x0 x1
      (constant S160x65 .f32 0x00000000#32) := by
  rw [shapeCast_self, shapeCast_self]; rfl

/-- THE BODY'S STORED VALUE AT AN ENTRY. -/
theorem pay_apply (x0 : Vec Ideal S160x10000 .f32) (x1 : Vec Ideal S10000x65 .bf16) (p : Fin 160) (q : Fin 64) :
    k0_pay1 x0 x1 (ix2 p q)
      = (∑ k : Fin 10000, x0 (ix2 p k) * x1 (ix2 k (tcol q)))
        * Ideal.div 1 (max 1 (∑ k : Fin 10000, x0 (ix2 p k) * x1 (ix2 k ccol))) := by
  rw [pay_eq, operands_eq, scaled_apply, prod_apply, prod_apply]

end Cert.KernelIdeal.Body

end
-- ==== Proof.KBlocks.lean ====
/-
  From the kernel's blocks to its output array.

  The grid has 20 points; point `t` takes rows `160 t … 160 t + 159` of the 3200 × 10000 weight matrix and the whole
  augmented table, and writes rows `160 t … 160 t + 159` of the 3200 × 64 output. Every entry of the body's stored
  block depends only on its own weight row and on the table, so each written block is the restriction of ONE function
  `rows` of the two arrays as the region finds them: row `r`, column `d` is the contraction of weight row `r` with table
  column `d`, times the reciprocal of the clamped contraction of row `r` with the column of ones. The 20 blocks tile the
  output (row `r` lies in block `r / 160`), so the output array after the run is `rows`.
-/
import proofs.«116994_j48704929136830_2_alg».proof.Proof.Gen.KernelIdeal.Frame
import proofs.«116994_j48704929136830_2_alg».proof.Proof.KPayload
import Idealize.ShloMosaic.Lib.Pipeline.Value

set_option maxRecDepth 16384

noncomputable section

namespace Cert.KernelIdeal.Blocks

open Cert.KernelIdeal Cert.KernelIdeal.Gen Cert.KernelIdeal.Body
open Idealize.ShloMosaic Idealize.ShloMosaic.TcCoe Idealize.ShloMosaic.ValueIdx Idealize.SL.Sem
open Idealize.ShloMosaic.Pipeline (Dat)

/-- The output array as one function of the weight matrix `X` and the augmented table `Wa`. -/
def rows (X : S3200x10000.Idx → EReal) (Wa : S10000x65.Idx → EReal) : S3200x64.Idx → EReal :=
  fun i => (∑ k : Fin 10000, X (ix2 (i 0) k) * Wa (ix2 k (tcol (i 1))))
    * Ideal.div 1 (max 1 (∑ k : Fin 10000, X (ix2 (i 0) k) * Wa (ix2 k ccol)))

/-- One entry of a stored block is one entry of `rows`, when the weight block's row `j 0` is the matrix's row `i 0`,
    the table block is the table, and the columns agree. -/
theorem entry_eq (X : S3200x10000.Idx → EReal) (Wa : S10000x65.Idx → EReal)
    (xb : Vec Ideal S160x10000 .f32) (wb : Vec Ideal S10000x65 .bf16) (i : S3200x64.Idx) (j : S160x64.Idx)
    (hx : ∀ k : Fin 10000, xb (ix2 (j 0) k) = X (ix2 (i 0) k))
    (hw : ∀ (k : Fin 10000) (d : Fin 65), wb (ix2 k d) = Wa (ix2 k d))
    (hq : (i 1).val = (j 1).val) :
    k0_pay1 xb wb j = rows X Wa i := by
  obtain ⟨p, q, rfl⟩ : ∃ (p : Fin 160) (q : Fin 64), j = ix2 p q := ⟨j 0, j 1, eq_ix2 j⟩
  have hq' : tcol (i 1) = tcol q := Fin.ext hq
  rw [pay_apply]
  unfold rows
  simp only [hw, hq']
  have hx' : ∀ k : Fin 10000, xb (ix2 p k) = X (ix2 (i 0) k) := hx
  simp only [hx']

theorem hz : (![0, 0] : Fin 2 → Nat) = fun _ => 0 := funext fun a => by fin_cases a <;> rfl

variable (m : (ℓ : Loc nD τ sig) → Buf (Elt Ideal) ℓ)

/-- The printed index maps over the grid: the weight window moves down the rows with the output window, the table
    window stays, and no window moves along the columns. -/
theorem idx_facts : ∀ t : Fin cfg0.N, win0_0.index t (0 : Fin 2) = win0_2.index t (0 : Fin 2)
    ∧ win0_0.index t (1 : Fin 2) = 0 ∧ win0_1.index t (0 : Fin 2) = 0 ∧ win0_1.index t (1 : Fin 2) = 0
    ∧ win0_2.index t (1 : Fin 2) = 0 :=
  (by decide +kernel : ∀ t : Fin grid0.N, _)

/-- Every block of rows is some point's. -/
theorem idx_onto : ∀ q0 : Fin 20, ∃ t : Fin cfg0.N, win0_2.index t = ![q0.val, 0] :=
  (by decide +kernel : ∀ q0 : Fin 20, ∃ t : Fin grid0.N, win0_2.index t = ![q0.val, 0])

/-- WHAT POINT `t` WRITES BACK is block `t` of `rows` of the two arrays as the region finds them. -/
theorem flushed_eq (c : Dev nD) (t : Fin cfg0.N) :
    (dats m 0 c).flushed 2 t = ((cfg0.win 2).blk t).view.read (Elt Ideal) (rows (V m c main_v0) (V m c main_v3)) := by
  show (cfg0.win 2).cut (grid0.coords t) ((dats m 0 c).after 2 t) = _
  rw [after0_2]
  unfold out0_2
  rw [View.canon_unit_zero hz]
  simp only [View.ld_unit_zero (S := S160x10000) hz, View.ld_unit_zero (S := S10000x65) hz]
  obtain ⟨e0, e1, e2, e3, e4⟩ := idx_facts t
  funext j
  show k0_pay1 (iblk m c 0 t) (iblk m c 1 t) j = rows (V m c main_v0) (V m c main_v3) (((cfg0.win 2).blk t).view.emb j)
  refine entry_eq (V m c main_v0) (V m c main_v3) (iblk m c 0 t) (iblk m c 1 t) (((cfg0.win 2).blk t).view.emb j) j ?_ ?_ ?_
  · intro k
    show V m c main_v0 (((cfg0.win 0).blk t).view.emb (ix2 (j 0) k)) = V m c main_v0 (ix2 ((((cfg0.win 2).blk t).view.emb j) 0) k)
    refine congrArg (V m c main_v0) (funext fun a => Fin.ext ?_)
    match a with
    | ⟨0, _⟩ => show win0_0.index t (0 : Fin 2) * 160 + 1 * (j 0).val = win0_2.index t (0 : Fin 2) * 160 + 1 * (j 0).val; omega
    | ⟨1, _⟩ => show win0_0.index t (1 : Fin 2) * 10000 + 1 * k.val = k.val; omega
  · intro k d
    show V m c main_v3 (((cfg0.win 1).blk t).view.emb (ix2 k d)) = V m c main_v3 (ix2 k d)
    refine congrArg (V m c main_v3) (funext fun a => Fin.ext ?_)
    match a with
    | ⟨0, _⟩ => show win0_1.index t (0 : Fin 2) * 10000 + 1 * k.val = k.val; omega
    | ⟨1, _⟩ => show win0_1.index t (1 : Fin 2) * 65 + 1 * d.val = d.val; omega
  · show win0_2.index t (1 : Fin 2) * 64 + 1 * (j 1).val = (j 1).val; omega

/-- An index of the output is in point `t`'s block iff each coordinate is in the block's range on its axis. -/
theorem mem_blk (t : Fin cfg0.N) (i : S3200x64.Idx) :
    i ∈ ((cfg0.win 2).blk t).view.set ↔ ∀ a : Fin 2, win0_2.index t a * S160x64.size a ≤ (i a).val ∧ (i a).val < win0_2.index t a * S160x64.size a + S160x64.size a := by
  show i ∈ ((View.whole main_v4).slice (win0_2.rect t)).set ↔ _
  rw [View.set_slice_whole, Rect.mem_set_unit]
  exact Iff.rfl

/-- THE COVER: row `r` of the output lies in the block of point `r / 160`, and every point writes back. -/
theorem cover (i : S3200x64.Idx) : ∃ t : Fin cfg0.N, (cfg0.win 2).flush t = true ∧ i ∈ ((cfg0.win 2).blk t).view.set := by
  have hi0 : (i 0).val < 3200 := (i 0).isLt
  have hi1 : (i 1).val < 64 := (i 1).isLt
  obtain ⟨t, ht⟩ := idx_onto ⟨(i 0).val / 160, by omega⟩
  have q0 : win0_2.index t (0 : Fin 2) = (i 0).val / 160 := congrFun ht 0
  have q1 : win0_2.index t (1 : Fin 2) = 0 := congrFun ht 1
  refine ⟨t, flush0_2 t, ?_⟩
  rw [mem_blk]
  intro a
  match a with
  | ⟨0, _⟩ => show win0_2.index t (0 : Fin 2) * 160 ≤ (i 0).val ∧ (i 0).val < win0_2.index t (0 : Fin 2) * 160 + 160; omega
  | ⟨1, _⟩ => show win0_2.index t (1 : Fin 2) * 64 ≤ (i 1).val ∧ (i 1).val < win0_2.index t (1 : Fin 2) * 64 + 64; omega

/-- THE OUTPUT ARRAY after the run is `rows` of the two arrays as the region finds them. -/
theorem final (c : Dev nD) : (dats m 0 c).arrAt 2 cfg0.N = rows (V m c main_v0) (V m c main_v3) :=
  (dats m 0 c).arrAt_eq_of_cover 2 (rows (V m c main_v0) (V m c main_v3)) (fun t _ => flushed_eq m c t) cover

end Cert.KernelIdeal.Blocks

end
-- ==== Proof.KValue.lean ====
/-
  The kernel's result as a function of its two arguments.

  Around the region the program only re-lays data: the weights [16, 200, 10000] are read as a matrix [3200, 10000]
  (row `200 b + s` is position `(b, s)`), the table gets a 65th column of ones and a change of format (the identity
  on the extended reals), and the 3200 × 64 output is read back as [16, 200, 64]. Reading each step at an index,
  the result at `(b, s, d)` is the contraction of weight row `(b, s)` with table column `d`, times the reciprocal of
  the clamped contraction of that row with ones: "dividing last".
-/
import proofs.«116994_j48704929136830_2_alg».proof.Proof.KBlocks

noncomputable section

namespace Cert.KernelIdeal.Whole

open Cert.KernelIdeal Cert.KernelIdeal.Gen Cert.KernelIdeal.Body Cert.KernelIdeal.Blocks Cert.MultiHot
open Idealize.ShloMosaic Idealize.ShloMosaic.ValueIdx

/-- The table with a last column of ones, as the region finds it. -/
def augmented (w : FVec Ideal S10000x64 .f32) : FVec Ideal S10000x65 .bf16 :=
  truncf .bf16 (concatenate S10000x65 1 [⟨S10000x64, w⟩,
    ⟨S10000x1, broadcastInDim S10000x1 ![] bcast_S_S10000x1 (constant (F := Ideal) S_ .f32 0x3F800000#32)⟩]
    concatenates_S10000x64_S10000x1_S10000x65_d1) bitsLt_bf16_f32

/-- Its first 64 columns are the table. -/
theorem augmented_table (w : FVec Ideal S10000x64 .f32) (k : Fin 10000) (d : Fin 64) :
    augmented w (ix2 k (tcol d)) = w (ix2 k d) := by
  unfold augmented
  rw [truncf_apply]
  exact concatenate_pair_apply_left (t := S10000x65) (s₁ := S10000x64) (s₂ := S10000x1) (1 : Fin 2) w _
    concatenates_S10000x64_S10000x1_S10000x65_d1 (ix2 k (tcol d)) rfl
    (ix2 k d : S10000x64.Idx) (fun b => by match b with | ⟨0, _⟩ => rfl | ⟨1, _⟩ => rfl)

/-- Its last column is one. -/
theorem augmented_ones (w : FVec Ideal S10000x64 .f32) (k : Fin 10000) : augmented w (ix2 k ccol) = 1 := by
  unfold augmented
  rw [truncf_apply]
  refine (concatenate_pair_apply_right (t := S10000x65) (s₁ := S10000x64) (s₂ := S10000x1) (1 : Fin 2) w _
    concatenates_S10000x64_S10000x1_S10000x65_d1 (ix2 k ccol) rfl rfl
    (ix2 k (0 : Fin 1) : S10000x1.Idx) (fun b hb => by match b with | ⟨0, _⟩ => rfl | ⟨1, _⟩ => exact absurd rfl hb) rfl).trans ?_
  exact one_f32

theorem rows_apply (X : S3200x10000.Idx → EReal) (Wa : S10000x65.Idx → EReal) (r : Fin 3200) (d : Fin 64) :
    rows X Wa (ix2 r d) = (∑ k : Fin 10000, X (ix2 r k) * Wa (ix2 k (tcol d)))
      * Ideal.div 1 (max 1 (∑ k : Fin 10000, X (ix2 r k) * Wa (ix2 k ccol))) := rfl

theorem Glast_apply (x : FVec Ideal S16x200x10000 .f32) (w : FVec Ideal S10000x64 .f32) (b : Fin 16) (s : Fin 200) (d : Fin 64) :
    Glast x w (ix3 b s d) = (∑ k : Fin 10000, x (ix3 b s k) * w (ix2 k d))
      * Ideal.div 1 (max 1 (∑ k : Fin 10000, x (ix3 b s k) * 1)) := rfl

/-- THE KERNEL'S VALUE: the output matrix of the re-laid weights and the augmented table, read back in three axes,
    is "dividing last" of the arguments. -/
theorem value_eq (x : FVec Ideal S16x200x10000 .f32) (w : FVec Ideal S10000x64 .f32) :
    shapeCast S16x200x64 (rows (shapeCast S3200x10000 x shapeCasts_S16x200x10000_S3200x10000) (augmented w))
      shapeCasts_S3200x64_S16x200x64 = Glast x w := by
  funext i
  obtain ⟨b, s, d, rfl⟩ : ∃ (b : Fin 16) (s : Fin 200) (d : Fin 64), i = ix3 b s d := ⟨i 0, i 1, i 2, eq_ix3 i⟩
  have hr : b.val * 200 + s.val < 3200 := by have := b.isLt; have := s.isLt; omega
  have hX : ∀ k : Fin 10000, shapeCast S3200x10000 x shapeCasts_S16x200x10000_S3200x10000 (ix2 ⟨b.val * 200 + s.val, hr⟩ k)
      = x (ix3 b s k) := fun k =>
    shapeCast_apply x _ _ _ (by rw [Shape.rowMajor_val_three, Shape.rowMajor_val_two]; rfl)
  rw [shapeCast_apply _ shapeCasts_S3200x64_S16x200x64 (ix3 b s d) (ix2 ⟨b.val * 200 + s.val, hr⟩ d) (by
    rw [Shape.rowMajor_val_two, Shape.rowMajor_val_three]; rfl), rows_apply, Glast_apply]
  simp only [hX, augmented_table, augmented_ones]

end Cert.KernelIdeal.Whole

end
-- ==== Proof.KRun.lean ====
/-
  The kernel's run, with its result named.

  Before the region the program writes the re-laid weights and the augmented table; after it, one re-layout of the
  region's output array. The generated frame run already states every buffer after the run: the region's output array
  at what the points' write-backs left (the function `rows`, by the cover), the result buffer at the last re-layout of
  it, the arguments unchanged. Chaining these, the result buffer holds "dividing last" of the arguments.
-/
import proofs.«116994_j48704929136830_2_alg».proof.Proof.KBlocks
import proofs.«116994_j48704929136830_2_alg».proof.Proof.KValue
import Idealize.ShloMosaic.Lib.StableHlo.Run

noncomputable section

namespace Cert.KernelIdeal.Whole

open Cert.KernelIdeal Cert.KernelIdeal.Gen Cert.KernelIdeal.Body Cert.KernelIdeal.Blocks Cert.MultiHot
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-- The region finds the weights re-laid as a matrix. -/
theorem V_main_v0 (c : Dev nD) :
    V m c main_v0 = shapeCast S3200x10000 (m ((c : Thread nD τ).loc main_arg0)) shapeCasts_S16x200x10000_S3200x10000 := by
  show StableHlo.after hostOps0 (fun b => m (c, b)) (Proc.devRef .tc main_v0) = _
  after_results
  rfl

/-- The region finds the augmented table. -/
theorem V_main_v3 (c : Dev nD) : V m c main_v3 = augmented (m ((c : Thread nD τ).loc main_arg1)) := by
  show StableHlo.after hostOps0 (fun b => m (c, b)) (Proc.devRef .tc main_v3) = _
  after_results
  rfl

/-- The result buffer after the run is the region's output array re-laid in three axes. -/
theorem tail_eq (c : Dev nD) :
    Pipeline.afterTail₀ cfgs (dats m) 0 (V0 m) [hostOps1] c main_v5
      = shapeCast S16x200x64 ((dats m 0 c).arrAt 2 cfg0.N) shapeCasts_S3200x64_S16x200x64 := by
  unfold Pipeline.afterTail₀
  show StableHlo.after hostOps1 _ (Proc.devRef .tc main_v5) = _
  after_results
  exact congrArg (fun A => shapeCast S16x200x64 A shapeCasts_S3200x64_S16x200x64)
    (Pipeline.withArrays_arr spec0 launch0.win.arr_inj c _ _ 2)

/-- The result buffer after the run is "dividing last" of the arguments. -/
theorem result_eq (c : Dev nD) :
    Pipeline.afterTail₀ cfgs (dats m) 0 (V0 m) [hostOps1] c main_v5
      = Glast (m ((c : Thread nD τ).loc main_arg0)) (m ((c : Thread nD τ).loc main_arg1)) := by
  rw [tail_eq, final, V_main_v0, V_main_v3]
  exact value_eq _ _

/-- THE KERNEL'S RUN: every weakly fair execution terminates with the result at "dividing last" of the arguments and
    the arguments unchanged. -/
theorem run : θ_run defs (onTc (τ := τ) (main (F := Ideal))) ⟨m, fun _ => 0, ρ⟩ fun r => ∀ c : Dev nD,
      r.2.mem ((c.tc : Thread nD τ).loc main_v5)
        = Glast (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c =>
    ⟨((h c).2 main_v5 (Pipeline.mem_restRefs_of main_v5 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c)⟩)
    (run_main m ρ)

end Cert.KernelIdeal.Whole

end
-- ==== Proof.lean ====
/-
  A multi-hot embedding lookup with count normalisation: the kernel equals its reference on the extended reals.

  Inputs: weights `x` [16, 200, 10000] and a table `w` [10000, 64], all entries finite. For a position `(b, s)` let
  `c = max 1 (Σ k, x (b, s, k))`, the row's count clamped below at one.
    * The reference normalises first: its result at `(b, s, d)` is `Σ k, (x (b, s, k) / c) · w (k, d)`.
    * The kernel appends a column of ones to the table and does one product per block of 160 rows: columns 0–63 of
      the product are `Σ k, x · w (k, d)`, column 64 is the count `Σ k, x · 1`; it clamps the count, takes one
      reciprocal per row and scales the 64 columns: `(Σ k, x (b, s, k) · w (k, d)) · (1 / c)`.
  With real entries `c` is a real at least one, division by it is the product with the real `1 / c`, and that factor
  moves across the finite sum: both are the real number `(Σ k, x · w) / c` (Proof/Spec.lean). Finiteness of the
  inputs is used exactly there (Proof/Finite.lean reads it off the precondition): at an infinite entry the factor
  could not be moved.
  The kernel's side (Proof/KPayload.lean, KBlocks.lean, KValue.lean, KRun.lean): the body's stored entry, each
  written block as the restriction of one function of the whole arrays, the 20 blocks tiling the output, and the
  re-layouts around the region read at an index. The reference's side (Proof/RefSide.lean): its stages read at an index.
  The ideal pass rewrote nothing, so the kernel's idealization is its own text and `preserves` has no conjunct.
-/
import proofs.«116994_j48704929136830_2_alg».proof.Defs
import proofs.«116994_j48704929136830_2_alg».proof.Proof.Gen.Kernel
import proofs.«116994_j48704929136830_2_alg».proof.Proof.Gen.Kernel.Skeleton
import proofs.«116994_j48704929136830_2_alg».proof.Proof.Gen.Kernel.Launch
import proofs.«116994_j48704929136830_2_alg».proof.Proof.Gen.Kernel.Points
import proofs.«116994_j48704929136830_2_alg».proof.Proof.Gen.Kernel.Frame
import proofs.«116994_j48704929136830_2_alg».proof.Proof.Gen.KernelIdeal
import proofs.«116994_j48704929136830_2_alg».proof.Proof.Gen.KernelIdeal.Skeleton
import proofs.«116994_j48704929136830_2_alg».proof.Proof.Gen.KernelIdeal.Launch
import proofs.«116994_j48704929136830_2_alg».proof.Proof.Gen.KernelIdeal.Points
import proofs.«116994_j48704929136830_2_alg».proof.Proof.Gen.KernelIdeal.Frame
import proofs.«116994_j48704929136830_2_alg».proof.Proof.Gen.ReferenceIdeal
import proofs.«116994_j48704929136830_2_alg».proof.Proof.Gen.ReferenceIdeal.Run
import proofs.«116994_j48704929136830_2_alg».proof.Proof.Gen.ReferenceIdeal.Read
import proofs.«116994_j48704929136830_2_alg».proof.Proof.Gen.Pre_finite_inputs
import proofs.«116994_j48704929136830_2_alg».proof.Proof.Spec
import proofs.«116994_j48704929136830_2_alg».proof.Proof.Finite
import proofs.«116994_j48704929136830_2_alg».proof.Proof.RefSide
import proofs.«116994_j48704929136830_2_alg».proof.Proof.KRun
import Idealize.ShloMosaic.Adequacy
import Idealize.ShloMosaic.Init

noncomputable section

namespace Cert.Proof

open Idealize.ShloMosaic Idealize.SL.Sem Cert.MultiHot

/-- The word-level kernel runs and keeps its arguments. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- The reference runs and keeps its arguments: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- No operation of the kernel was rewritten on the way to the extended reals. -/
theorem preserves : Cert.preserves_Kernel_KernelIdeal := trivial

/-- From memories agreeing on finite arguments, the kernel ends at "dividing last" and the reference at "dividing
    first" of the same arrays; on real entries these are one function. -/
theorem algebraic : Cert.algebraic_KernelIdeal_ReferenceIdeal := by
  intro m ρ m' ρ' hpre hagree
  refine ⟨fun c => G (m ((c.tc : Thread Cert.KernelIdeal.nD Cert.KernelIdeal.τ).loc Cert.KernelIdeal.main_arg0))
    (m ((c.tc : Thread Cert.KernelIdeal.nD Cert.KernelIdeal.τ).loc Cert.KernelIdeal.main_arg1)), ?_, ?_⟩
  · refine (θ_run Cert.KernelIdeal.defs _ _).mono (fun r h c => ⟨(h c).1.trans ?_, (h c).2⟩)
      (Cert.KernelIdeal.Whole.run m ρ)
    obtain ⟨hx, hw⟩ := Cert.Pre_finite_inputs.Decode.real_of_pre _ _ (hpre c)
    exact Glast_eq_G _ _ hx hw
  · refine (θ_run Cert.ReferenceIdeal.defs _ _).mono (fun r h c => ⟨(h c).1.trans ?_, (h c).2⟩)
      (Cert.ReferenceIdeal.Value.run (F := Ideal) m' ρ')
    refine (Cert.ReferenceIdeal.Read.val_main_v5_eq _ _).trans ((Cert.ReferenceIdeal.RefValue.ref_is_G _ _).trans ?_)
    rw [(hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
